-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S120000x64 : Shape := ⟨2, ![120000, 64]⟩
abbrev S120000x4 : Shape := ⟨2, ![120000, 4]⟩
abbrev S120000 : Shape := ⟨1, ![120000]⟩
abbrev S4 : Shape := ⟨1, ![4]⟩
abbrev S_ : Shape := ⟨0, ![]⟩

class Facts : Prop where
  bcast_S_S120000x64 : S_.BroadcastsInDim S120000x64 (![] : Fin 0 → Fin S120000x64.rank)
  reducesTo_S120000x64_S_d0_1 : S120000x64.ReducesTo [0, 1] S_
  h_S_ : 0 < S_.numel

variable [Facts]

def fn {F : FTy → Type} [FloatOps F] (main_arg0 : FVec F S120000x64 .f32) (main_arg1 : IVec S120000x4 32) (main_arg2 : IVec S120000 32) (main_arg3 : IVec S4 32) : IVec S_ 1 :=
  let main_v0 : FVec F S120000x64 .f32 := Host.absf main_arg0
  let main_cst : FVec F S_ .f32 := constant S_ .f32 0x7F800000#32
  let main_v1 : FVec F S120000x64 .f32 := broadcastInDim S120000x64 ![] bcast_S_S120000x64 main_cst
  let main_v2 : IVec S120000x64 1 := cmpf .olt main_v0 main_v1
  let main_c : IVec S_ 1 := constantI S_ 1 1#1
  let main_v3 : IVec S_ 1 := (fun x v => Host.reduce IntOp.andi x v reducesTo_S120000x64_S_d0_1 h_S_) main_v2 main_c
  main_v3
-- ==== Kernel.lean ====
abbrev S120000x64 : Shape := ⟨2, ![120000, 64]⟩
abbrev S120000x4 : Shape := ⟨2, ![120000, 4]⟩
abbrev S120000 : Shape := ⟨1, ![120000]⟩
abbrev S4 : Shape := ⟨1, ![4]⟩
abbrev S_ : Shape := ⟨0, ![]⟩
abbrev S120000x1 : Shape := ⟨2, ![120000, 1]⟩
abbrev S4x140800x64 : Shape := ⟨3, ![4, 140800, 64]⟩
abbrev S120000x2 : Shape := ⟨2, ![120000, 2]⟩
abbrev S4x200x704x64 : Shape := ⟨4, ![4, 200, 704, 64]⟩
abbrev S4x64x200x704 : Shape := ⟨4, ![4, 64, 200, 704]⟩
abbrev S1x40x704x64 : Shape := ⟨4, ![1, 40, 704, 64]⟩
abbrev S1x64x40x704 : Shape := ⟨4, ![1, 64, 40, 704]⟩
abbrev S40x704x64 : Shape := ⟨3, ![40, 704, 64]⟩
abbrev S64x40x704 : Shape := ⟨3, ![64, 40, 704]⟩

abbrev nBuf : Space → Nat
  | .hbm => 46
  | .vmem => 4
  | .smem => 0
  | _ => 0

abbrev bufTy : (tb : Table) → Fin (tcTables nBuf tb) → BufTy
  | .hbm, ⟨0, _⟩ => ⟨S120000x64, .f32⟩
  | .hbm, ⟨1, _⟩ => ⟨S120000x4, .i32⟩
  | .hbm, ⟨2, _⟩ => ⟨S120000, .i32⟩
  | .hbm, ⟨3, _⟩ => ⟨S4, .i32⟩
  | .hbm, ⟨4, _⟩ => ⟨S_, .i32⟩
  | .hbm, ⟨5, _⟩ => ⟨S120000, .i32⟩
  | .hbm, ⟨6, _⟩ => ⟨S120000, .i1⟩
  | .hbm, ⟨7, _⟩ => ⟨S120000x1, .i32⟩
  | .hbm, ⟨8, _⟩ => ⟨S120000, .i32⟩
  | .hbm, ⟨9, _⟩ => ⟨S120000x1, .i32⟩
  | .hbm, ⟨10, _⟩ => ⟨S120000, .i32⟩
  | .hbm, ⟨11, _⟩ => ⟨S120000x1, .i32⟩
  | .hbm, ⟨12, _⟩ => ⟨S120000, .i32⟩
  | .hbm, ⟨13, _⟩ => ⟨S_, .i32⟩
  | .hbm, ⟨14, _⟩ => ⟨S120000, .i32⟩
  | .hbm, ⟨15, _⟩ => ⟨S120000, .i32⟩
  | .hbm, ⟨16, _⟩ => ⟨S120000, .i32⟩
  | .hbm, ⟨17, _⟩ => ⟨S120000x1, .i32⟩
  | .hbm, ⟨18, _⟩ => ⟨S120000, .i32⟩
  | .hbm, ⟨19, _⟩ => ⟨S120000, .i32⟩
  | .hbm, ⟨20, _⟩ => ⟨S_, .i32⟩
  | .hbm, ⟨21, _⟩ => ⟨S_, .i32⟩
  | .hbm, ⟨22, _⟩ => ⟨S120000, .i32⟩
  | .hbm, ⟨23, _⟩ => ⟨S120000, .i32⟩
  | .hbm, ⟨24, _⟩ => ⟨S_, .f32⟩
  | .hbm, ⟨25, _⟩ => ⟨S4x140800x64, .f32⟩
  | .hbm, ⟨26, _⟩ => ⟨S_, .i32⟩
  | .hbm, ⟨27, _⟩ => ⟨S120000, .i32⟩
  | .hbm, ⟨28, _⟩ => ⟨S120000, .i1⟩
  | .hbm, ⟨29, _⟩ => ⟨S_, .i32⟩
  | .hbm, ⟨30, _⟩ => ⟨S120000, .i32⟩
  | .hbm, ⟨31, _⟩ => ⟨S120000, .i32⟩
  | .hbm, ⟨32, _⟩ => ⟨S120000, .i32⟩
  | .hbm, ⟨33, _⟩ => ⟨S_, .i32⟩
  | .hbm, ⟨34, _⟩ => ⟨S120000, .i32⟩
  | .hbm, ⟨35, _⟩ => ⟨S120000, .i1⟩
  | .hbm, ⟨36, _⟩ => ⟨S_, .i32⟩
  | .hbm, ⟨37, _⟩ => ⟨S120000, .i32⟩
  | .hbm, ⟨38, _⟩ => ⟨S120000, .i32⟩
  | .hbm, ⟨39, _⟩ => ⟨S120000, .i32⟩
  | .hbm, ⟨40, _⟩ => ⟨S120000x1, .i32⟩
  | .hbm, ⟨41, _⟩ => ⟨S120000x1, .i32⟩
  | .hbm, ⟨42, _⟩ => ⟨S120000x2, .i32⟩
  | .hbm, ⟨43, _⟩ => ⟨S4x140800x64, .f32⟩
  | .hbm, ⟨44, _⟩ => ⟨S4x200x704x64, .f32⟩
  | .hbm, ⟨45, _⟩ => ⟨S4x64x200x704, .f32⟩
  | .local _ .vmem, ⟨0, _⟩ => ⟨S1x40x704x64, .f32⟩
  | .local _ .vmem, ⟨1, _⟩ => ⟨S1x40x704x64, .f32⟩
  | .local _ .vmem, ⟨2, _⟩ => ⟨S1x64x40x704, .f32⟩
  | .local _ .vmem, ⟨3, _⟩ => ⟨S1x64x40x704, .f32⟩
  | _, _ => ⟨S120000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_call0_v0 : Ref sig .tc := ⟨.hbm, 21, rfl⟩
abbrev main_call0_v1 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 5], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x40x704x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x40x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  bcast_S_S120000 : S_.BroadcastsInDim S120000 (![] : Fin 0 → Fin S120000.rank)
  slices_S120000x4_S120000x1_0_0 : S120000x4.Slices ![0, 0] S120000x1
  shapeCasts_S120000x1_S120000 : S120000x1.ShapeCasts S120000
  slices_S120000x4_S120000x1_0_1 : S120000x4.Slices ![0, 1] S120000x1
  slices_S120000x4_S120000x1_0_2 : S120000x4.Slices ![0, 2] S120000x1
  slices_S120000x4_S120000x1_0_3 : S120000x4.Slices ![0, 3] S120000x1
  bcast_S_S4x140800x64 : S_.BroadcastsInDim S4x140800x64 (![] : Fin 0 → Fin S4x140800x64.rank)
  bcast_S120000_S120000x1_0 : S120000.BroadcastsInDim S120000x1 (![0] : Fin 1 → Fin S120000x1.rank)
  concatenates_S120000x1_S120000x1_S120000x2_d1 : Shape.Concatenates [S120000x1, S120000x1] S120000x2 1
  shapeCasts_S4x140800x64_S4x200x704x64 : S4x140800x64.ShapeCasts S4x200x704x64
  inb_S1x40x704x64_S1x40x704x64_0_0_0_0 : ∀ a, (![0, 0, 0, 0] : Fin 4 → Nat) a + S1x40x704x64.size a ≤ S1x40x704x64.size a
  h_S1x40x704x64 : 0 < S1x40x704x64.numel
  shapeCasts_S1x40x704x64_S40x704x64 : S1x40x704x64.ShapeCasts S40x704x64
  transposes_S40x704x64_p2_0_1_S64x40x704 : S40x704x64.Transposes [2, 0, 1] S64x40x704
  inb_S1x64x40x704_S1x64x40x704_0_0_0_0 : ∀ a, (![0, 0, 0, 0] : Fin 4 → Nat) a + S1x64x40x704.size a ≤ S1x64x40x704.size a
  h_S1x64x40x704 : 0 < S1x64x40x704.numel
  shapeCasts_S1x64x40x704_S64x40x704 : S1x64x40x704.ShapeCasts S64x40x704
  shapeCasts_S64x40x704_S1x64x40x704 : S64x40x704.ShapeCasts S1x64x40x704
  scatter_S4x140800x64_S120000x2_S120000x64_1_01_01_1_wf : ScatterDims.WF S4x140800x64 S120000x2 S120000x64 [1] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x40x704x64.size a ≤ S4x200x704x64.size a
  hwx0_0 : ∀ i : grid0.Coords, EltTy.bits .f32 = 32 ∨ (Rect.block (s := S4x200x704x64) S1x40x704x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x40x704.size a ≤ S4x64x200x704.size a
  hwx0_1 : ∀ i : grid0.Coords, EltTy.bits .f32 = 32 ∨ (Rect.block (s := S4x64x200x704) S1x64x40x704.size (cc0_transform_1 i) (hinb0_1 i)).WholeWords (EltTy.packing .f32)

variable [Facts₀]

def scatter_S4x140800x64_S120000x2_S120000x64_1_01_01_1 : ScatterDims S4x140800x64 S120000x2 S120000x64 where
  updateWindowDims := [1]
  insertedWindowDims := [0, 1]
  scatterDimsToOperandDims := [0, 1]
  indexVectorDim := 1
  wf := scatter_S4x140800x64_S120000x2_S120000x64_1_01_01_1_wf

abbrev win0_0 : Pipeline.Window sig grid0 :=
  Pipeline.Window.ofSpec (Memref.whole main_v30) S1x40x704x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S1x64x40x704.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S120000x64 : Shape := ⟨2, ![120000, 64]⟩
abbrev S120000x4 : Shape := ⟨2, ![120000, 4]⟩
abbrev S120000 : Shape := ⟨1, ![120000]⟩
abbrev S4 : Shape := ⟨1, ![4]⟩
abbrev S_ : Shape := ⟨0, ![]⟩
abbrev S120000x1 : Shape := ⟨2, ![120000, 1]⟩
abbrev S4x140800x64 : Shape := ⟨3, ![4, 140800, 64]⟩
abbrev S120000x2 : Shape := ⟨2, ![120000, 2]⟩
abbrev S4x64x140800 : Shape := ⟨3, ![4, 64, 140800]⟩
abbrev S4x64x200x704 : Shape := ⟨4, ![4, 64, 200, 704]⟩

abbrev nBuf : Space → Nat
  | .hbm => 46
  | .vmem => 0
  | .smem => 0
  | _ => 0

abbrev bufTy : (tb : Table) → Fin (tcTables nBuf tb) → BufTy
  | .hbm, ⟨0, _⟩ => ⟨S120000x64, .f32⟩
  | .hbm, ⟨1, _⟩ => ⟨S120000x4, .i32⟩
  | .hbm, ⟨2, _⟩ => ⟨S120000, .i32⟩
  | .hbm, ⟨3, _⟩ => ⟨S4, .i32⟩
  | .hbm, ⟨4, _⟩ => ⟨S_, .i32⟩
  | .hbm, ⟨5, _⟩ => ⟨S120000, .i32⟩
  | .hbm, ⟨6, _⟩ => ⟨S120000, .i1⟩
  | .hbm, ⟨7, _⟩ => ⟨S120000x1, .i32⟩
  | .hbm, ⟨8, _⟩ => ⟨S120000, .i32⟩
  | .hbm, ⟨9, _⟩ => ⟨S120000x1, .i32⟩
  | .hbm, ⟨10, _⟩ => ⟨S120000, .i32⟩
  | .hbm, ⟨11, _⟩ => ⟨S120000x1, .i32⟩
  | .hbm, ⟨12, _⟩ => ⟨S120000, .i32⟩
  | .hbm, ⟨13, _⟩ => ⟨S_, .i32⟩
  | .hbm, ⟨14, _⟩ => ⟨S120000, .i32⟩
  | .hbm, ⟨15, _⟩ => ⟨S120000, .i32⟩
  | .hbm, ⟨16, _⟩ => ⟨S120000, .i32⟩
  | .hbm, ⟨17, _⟩ => ⟨S120000x1, .i32⟩
  | .hbm, ⟨18, _⟩ => ⟨S120000, .i32⟩
  | .hbm, ⟨19, _⟩ => ⟨S120000, .i32⟩
  | .hbm, ⟨20, _⟩ => ⟨S_, .i32⟩
  | .hbm, ⟨21, _⟩ => ⟨S_, .i32⟩
  | .hbm, ⟨22, _⟩ => ⟨S120000, .i32⟩
  | .hbm, ⟨23, _⟩ => ⟨S120000, .i32⟩
  | .hbm, ⟨24, _⟩ => ⟨S_, .f32⟩
  | .hbm, ⟨25, _⟩ => ⟨S4x140800x64, .f32⟩
  | .hbm, ⟨26, _⟩ => ⟨S_, .i32⟩
  | .hbm, ⟨27, _⟩ => ⟨S120000, .i32⟩
  | .hbm, ⟨28, _⟩ => ⟨S120000, .i1⟩
  | .hbm, ⟨29, _⟩ => ⟨S_, .i32⟩
  | .hbm, ⟨30, _⟩ => ⟨S120000, .i32⟩
  | .hbm, ⟨31, _⟩ => ⟨S120000, .i32⟩
  | .hbm, ⟨32, _⟩ => ⟨S120000, .i32⟩
  | .hbm, ⟨33, _⟩ => ⟨S_, .i32⟩
  | .hbm, ⟨34, _⟩ => ⟨S120000, .i32⟩
  | .hbm, ⟨35, _⟩ => ⟨S120000, .i1⟩
  | .hbm, ⟨36, _⟩ => ⟨S_, .i32⟩
  | .hbm, ⟨37, _⟩ => ⟨S120000, .i32⟩
  | .hbm, ⟨38, _⟩ => ⟨S120000, .i32⟩
  | .hbm, ⟨39, _⟩ => ⟨S120000, .i32⟩
  | .hbm, ⟨40, _⟩ => ⟨S120000x1, .i32⟩
  | .hbm, ⟨41, _⟩ => ⟨S120000x1, .i32⟩
  | .hbm, ⟨42, _⟩ => ⟨S120000x2, .i32⟩
  | .hbm, ⟨43, _⟩ => ⟨S4x140800x64, .f32⟩
  | .hbm, ⟨44, _⟩ => ⟨S4x64x140800, .f32⟩
  | .hbm, ⟨45, _⟩ => ⟨S4x64x200x704, .f32⟩
  | _, _ => ⟨S120000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_call0_v0 : Ref sig .tc := ⟨.hbm, 21, rfl⟩
abbrev main_call0_v1 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]

class Facts₀ : Prop where
  bcast_S_S120000 : S_.BroadcastsInDim S120000 (![] : Fin 0 → Fin S120000.rank)
  slices_S120000x4_S120000x1_0_0 : S120000x4.Slices ![0, 0] S120000x1
  shapeCasts_S120000x1_S120000 : S120000x1.ShapeCasts S120000
  slices_S120000x4_S120000x1_0_1 : S120000x4.Slices ![0, 1] S120000x1
  slices_S120000x4_S120000x1_0_2 : S120000x4.Slices ![0, 2] S120000x1
  slices_S120000x4_S120000x1_0_3 : S120000x4.Slices ![0, 3] S120000x1
  bcast_S_S4x140800x64 : S_.BroadcastsInDim S4x140800x64 (![] : Fin 0 → Fin S4x140800x64.rank)
  bcast_S120000_S120000x1_0 : S120000.BroadcastsInDim S120000x1 (![0] : Fin 1 → Fin S120000x1.rank)
  concatenates_S120000x1_S120000x1_S120000x2_d1 : Shape.Concatenates [S120000x1, S120000x1] S120000x2 1
  transposes_S4x140800x64_S4x64x140800_0_2_1 : S4x140800x64.Transposes [0, 2, 1] S4x64x140800
  shapeCasts_S4x64x140800_S4x64x200x704 : S4x64x140800.ShapeCasts S4x64x200x704
  scatter_S4x140800x64_S120000x2_S120000x64_1_01_01_1_wf : ScatterDims.WF S4x140800x64 S120000x2 S120000x64 [1] [0, 1] [0, 1] 1

variable [Facts₀]

def scatter_S4x140800x64_S120000x2_S120000x64_1_01_01_1 : ScatterDims S4x140800x64 S120000x2 S120000x64 where
  updateWindowDims := [1]
  insertedWindowDims := [0, 1]
  scatterDimsToOperandDims := [0, 1]
  indexVectorDim := 1
  wf := scatter_S4x140800x64_S120000x2_S120000x64_1_01_01_1_wf

class Facts : Prop extends Facts₀ where

variable [Facts]
-- ==== Proof.CellLayout.lean ====
/-
  The layout law of a pillar canvas, with no program in sight.

  A canvas is stored cell-major: sample `b`, cell `g` (the cells of a 200 × 704 bird's-eye grid numbered row by
  row, `g = 704·y + x`), channel `c`, that is an array over [4, 140800, 64]. The network wants it channel-major:
  sample, channel, row, column, an array over [4, 64, 200, 704]. The entry of the channel-major array at
  `(b, c, y, x)` is the entry of the cell-major one at `(b, 704·y + x, c)`: a pure re-indexing, with no arithmetic
  on the entries, so it holds for entries of any type (in particular for extended reals, infinite ones included).
-/
import Idealize.ShloMosaic.Lib.Pipeline.Value

namespace Cert.PillarCanvas

open Idealize.ShloMosaic

/-- Cell-major canvas: sample, cell, channel. -/
abbrev Cells : Shape := ⟨3, ![4, 140800, 64]⟩
/-- Channel-major canvas: sample, channel, row, column. -/
abbrev Planes : Shape := ⟨4, ![4, 64, 200, 704]⟩

/-- Where the channel-major entry `(b, c, y, x)` sits in the cell-major canvas: `(b, 704·y + x, c)`. -/
def cellOf (i : Planes.Idx) : Cells.Idx := fun a => match a with
  | ⟨0, _⟩ => ⟨(i 0).val, by have h0 : (i 0).val < 4 := (i 0).isLt; show (i 0).val < 4; omega⟩
  | ⟨1, _⟩ => ⟨(i 2).val * 704 + (i 3).val, by
      have h2 : (i 2).val < 200 := (i 2).isLt
      have h3 : (i 3).val < 704 := (i 3).isLt
      show (i 2).val * 704 + (i 3).val < 140800; omega⟩
  | ⟨2, _⟩ => ⟨(i 1).val, by have h1 : (i 1).val < 64 := (i 1).isLt; show (i 1).val < 64; omega⟩

theorem cellOf_sample (i : Planes.Idx) : (cellOf i 0).val = (i 0).val := rfl
theorem cellOf_cell (i : Planes.Idx) : (cellOf i 1).val = (i 2).val * 704 + (i 3).val := rfl
theorem cellOf_channel (i : Planes.Idx) : (cellOf i 2).val = (i 1).val := rfl

/-- The channel-major reading of a cell-major canvas. -/
def channelsFirst {α : Type} (X : Cells.Idx → α) : Planes.Idx → α := fun i => X (cellOf i)

theorem channelsFirst_apply {α : Type} (X : Cells.Idx → α) (i : Planes.Idx) :
    channelsFirst X i = X (cellOf i) := rfl

/-- Two cell-major indices with the same three coordinates are one index. -/
theorem cells_ext {j k : Cells.Idx} (h0 : (j 0).val = (k 0).val) (h1 : (j 1).val = (k 1).val)
    (h2 : (j 2).val = (k 2).val) : j = k := by
  funext a; apply Fin.ext
  match a with
  | ⟨0, _⟩ => exact h0
  | ⟨1, _⟩ => exact h1
  | ⟨2, _⟩ => exact h2

end Cert.PillarCanvas
-- ==== Proof.ReferenceCells.lean ====
/-
  The reference, after its scatter: it swaps the cell and channel axes of the cell-major canvas [4, 140800, 64] and
  then splits the cell axis into rows and columns, [4, 64, 140800] → [4, 64, 200, 704]. Read at `(b, c, y, x)`:
  the split sends it to cell `704·y + x` of channel `c` (the row-major position
  `((64·b + c)·200 + y)·704 + x` has quotient `b` by 64·140800, quotient `c` mod 64 by 140800 and remainder
  `704·y + x` mod 140800), and the swap to `(b, 704·y + x, c)` of the scattered canvas. So the reference's result
  is the channel-major reading of its scatter stage; the scatter itself is not looked into.
-/
import proofs.«154188_j37168646980370_2_alg».proof.Proof.Gen.ReferenceIdeal.Read
import proofs.«154188_j37168646980370_2_alg».proof.Proof.CellLayout

noncomputable section

namespace Cert.ReferenceIdeal.Canvas

open Cert.ReferenceIdeal Cert.ReferenceIdeal.Read Idealize.ShloMosaic Cert.PillarCanvas

variable {F : FTy → Type} [FloatOps F]

/-- The transposed and re-split canvas is the channel-major reading of the scattered one. -/
theorem result_eq (x0 : (⟨S120000x64, .f32⟩ : BufTy).Contents (Elt F)) (x1 : (⟨S120000x4, .i32⟩ : BufTy).Contents (Elt F))
    (x2 : (⟨S120000, .i32⟩ : BufTy).Contents (Elt F)) :
    val_main_v31 (F := F) x0 x1 x2
      = channelsFirst (val_main_v29 (F := F) x0 x1 x2 : S4x140800x64.Idx → Elt F .f32) := by
  funext i
  rw [val_main_v31_apply, val_main_v30_apply, channelsFirst_apply]
  have h0 : (i 0).val < 4 := (i 0).isLt
  have h1 : (i 1).val < 64 := (i 1).isLt
  have h2 : (i 2).val < 200 := (i 2).isLt
  have h3 : (i 3).val < 704 := (i 3).isLt
  refine congrArg (val_main_v29 (F := F) x0 x1 x2) (cells_ext ?_ ?_ ?_)
  · show ((((i 0).val * 64 + (i 1).val) * 200 + (i 2).val) * 704 + (i 3).val) / 9011200 = (i 0).val
    omega
  · show ((((i 0).val * 64 + (i 1).val) * 200 + (i 2).val) * 704 + (i 3).val) % 140800 = (i 2).val * 704 + (i 3).val
    omega
  · show ((((i 0).val * 64 + (i 1).val) * 200 + (i 2).val) * 704 + (i 3).val) / 140800 % 64 = (i 1).val
    omega

end Cert.ReferenceIdeal.Canvas

end
-- ==== Proof.RegionInput.lean ====
/-
  What the kernel's one region finds in its input array. Before the region the host computes the same scattered
  cell-major canvas [4, 140800, 64] as the reference does — the same index arithmetic on the coordinates, the same
  out-of-range routing of empty pillars, the same scatter into zeros — and then only re-splits its cell axis:
  [4, 140800, 64] → [4, 200, 704, 64]. Both arrays are row-major, so entry `(b, y, x, c)` of the region's input is
  entry `(b, 704·y + x, c)` of the scattered canvas. The scatter itself is never looked into: it is one stage,
  common to the two programs.
-/
import proofs.«154188_j37168646980370_2_alg».proof.Proof.Gen.KernelIdeal.Frame
import proofs.«154188_j37168646980370_2_alg».proof.Proof.Gen.ReferenceIdeal.Read
import proofs.«154188_j37168646980370_2_alg».proof.Proof.CellLayout
import Idealize.ShloMosaic.Lib.StableHlo.Run
import Idealize.ShloMosaic.Lib.Pipeline.Value

noncomputable section

namespace Cert.KernelIdeal.Canvas

open Cert.KernelIdeal Cert.KernelIdeal.Gen Idealize.ShloMosaic Idealize.ShloMosaic.TcCoe Idealize.SL.Sem
open Idealize.ShloMosaic.StableHlo Cert.PillarCanvas

variable {F : FTy → Type} [FloatOps F]
variable (m : (ℓ : Loc nD τ sig) → Buf (Elt F) ℓ)

/-- The scattered cell-major canvas of core `c`'s argument arrays: the stage both programs compute. -/
abbrev scattered (c : Dev nD) : S4x140800x64.Idx → Elt F .f32 :=
  Cert.ReferenceIdeal.Read.val_main_v29 (F := F) (m ((c : Thread nD τ).loc main_arg0))
    (m ((c : Thread nD τ).loc main_arg1)) (m ((c : Thread nD τ).loc main_arg2))

set_option maxRecDepth 8192 in
set_option maxHeartbeats 2000000 in
/-- The region's input array is the scattered canvas with its cell axis split into rows and columns. -/
theorem region_input (c : Dev nD) :
    (V m c main_v30 : S4x200x704x64.Idx → Elt F .f32)
      = shapeCast S4x200x704x64 (scattered m c) shapeCasts_S4x140800x64_S4x200x704x64 := by
  dsimp only [Gen.V]
  simp only [Gen.hostOps0, Gen.hostOps0_1, Gen.hostOps0_2, List.flatten_cons, List.flatten_nil, List.append_nil,
    List.cons_append, List.nil_append]
  after_results
  rfl

/-- Read at an index: entry `(b, y, x, c)` of the region's input is entry `(b, 704·y + x, c)` of the scattered
    canvas. -/
theorem region_input_apply (c : Dev nD) (j : S4x200x704x64.Idx) (k : S4x140800x64.Idx)
    (h0 : (k 0).val = (j 0).val) (h1 : (k 1).val = (j 1).val * 704 + (j 2).val) (h2 : (k 2).val = (j 3).val) :
    (V m c main_v30 : S4x200x704x64.Idx → Elt F .f32) j = scattered m c k := by
  refine (congrFun (region_input m c) j).trans ?_
  refine shapeCast_apply _ _ j k ?_
  rw [Shape.rowMajor_val_three, Shape.rowMajor_val_four]
  show ((k 0).val * 140800 + (k 1).val) * 64 + (k 2).val
    = (((j 0).val * 200 + (j 1).val) * 704 + (j 2).val) * 64 + (j 3).val
  omega

end Cert.KernelIdeal.Canvas

end
-- ==== Proof.BlocksToPlanes.lean ====
/-
  The kernel's region, from blocks to the whole array. The grid has 4 × 5 points `(b, s)`: the input block is rows
  `40·s … 40·s + 39` of sample `b` of the [4, 200, 704, 64] canvas (a [1, 40, 704, 64] block), the output block the
  same rows of sample `b` of the [4, 64, 200, 704] result (a [1, 64, 40, 704] block). The body moves the channel axis
  to the front: entry `(0, c, y, x)` of the block it leaves is entry `(0, y, x, c)` of the block it loaded. Hence what
  a point writes back is its block of ONE whole-array function — the channel-major reading of the scattered canvas —
  and since the twenty output blocks tile the result (sample `b`, rows `40·s …`: the point covering row `y` is
  `s = y / 40`), the result array ends holding that function everywhere.
-/
import proofs.«154188_j37168646980370_2_alg».proof.Proof.Gen.KernelIdeal.Value
import proofs.«154188_j37168646980370_2_alg».proof.Proof.RegionInput

noncomputable section

namespace Cert.KernelIdeal.Canvas

open Cert.KernelIdeal Cert.KernelIdeal.Gen Idealize.ShloMosaic Idealize.ShloMosaic.TcCoe Idealize.SL.Sem
open Idealize.ShloMosaic.Pipeline (Dat)
open Cert.PillarCanvas

variable {F : FTy → Type} [FloatOps F]
variable (m : (ℓ : Loc nD τ sig) → Buf (Elt F) ℓ) (ρ : Dev nD → PrngReg)

theorem origin4 : (![0, 0, 0, 0] : Fin 4 → Nat) = fun _ => 0 := funext fun a => by fin_cases a <;> rfl

/-- The block the body leaves, entry by entry: `(0, c, y, x)` holds the loaded block's `(0, y, x, c)`. -/
theorem body_block (x0 : Vec F S1x40x704x64 .f32) (y : S1x64x40x704.Idx) :
    out0_1 x0 y = x0 (Value.ix1_0 y) := by
  unfold out0_1
  refine (Value.canon1_eq (View.ld x0 r0_0) y).trans ?_
  show View.ld x0 r0_0 (Value.ix1_0 y) = x0 (Value.ix1_0 y)
  rw [View.ld_unit_zero (S := S1x40x704x64) origin4]

/-- The two printed index maps over the grid: both blocks sit at sample `b`; the input's row-block index is the
    output's; every other block index is zero. -/
theorem index_facts : ∀ t : Fin cfg0.N,
    win0_0.index t (0 : Fin 4) = win0_1.index t (0 : Fin 4)
    ∧ win0_0.index t (1 : Fin 4) = win0_1.index t (2 : Fin 4)
    ∧ win0_0.index t (2 : Fin 4) = 0 ∧ win0_0.index t (3 : Fin 4) = 0
    ∧ win0_1.index t (1 : Fin 4) = 0 ∧ win0_1.index t (3 : Fin 4) = 0 :=
  (by decide +kernel : ∀ t : Fin grid0.N, _)

/-- Every (sample, row-block) pair is some point's output block. -/
theorem index_onto : ∀ (q0 : Fin 4) (q2 : Fin 5), ∃ t : Fin cfg0.N, win0_1.index t = ![q0.val, 0, q2.val, 0] :=
  (by decide +kernel : ∀ (q0 : Fin 4) (q2 : Fin 5), ∃ t : Fin grid0.N, win0_1.index t = ![q0.val, 0, q2.val, 0])

/-- The geometry of one point, for ANY input array `W` over [4, 200, 704, 64] and ANY function `G` over
    [4, 64, 200, 704] whose entry `(b, c, y, x)` is `W` at `(b, y, x, c)`: the body, run on point `t`'s input block of
    `W`, leaves point `t`'s output block of `G`. The body's block entry `(0, c, y, x)` is the loaded block's
    `(0, y, x, c)`, and the two blocks sit at the same sample and the same rows of their arrays. -/
theorem block_read (t : Fin cfg0.N) (W : S4x200x704x64.Idx → Elt F .f32) (G : S4x64x200x704.Idx → Elt F .f32)
    (hG : ∀ (j : S4x200x704x64.Idx) (i : S4x64x200x704.Idx), (i 0).val = (j 0).val → (i 1).val = (j 3).val →
      (i 2).val = (j 1).val → (i 3).val = (j 2).val → W j = G i) :
    (cfg0.win 1).cut (grid0.coords t) (out0_1 (((cfg0.win 0).blk t).view.read (Elt F) W))
      = ((cfg0.win 1).blk t).view.read (Elt F) G := by
  obtain ⟨e0, e1, e2, e3, e4, e5⟩ := index_facts t
  funext y
  show out0_1 (((cfg0.win 0).blk t).view.read (Elt F) W) y = G (((cfg0.win 1).blk t).view.emb y)
  refine (body_block (((cfg0.win 0).blk t).view.read (Elt F) W) y).trans ?_
  show W (((cfg0.win 0).blk t).view.emb (Value.ix1_0 y)) = _
  have hy0 : (y 0).val < 1 := (y 0).isLt
  have hy1 : (y 1).val < 64 := (y 1).isLt
  have hy2 : (y 2).val < 40 := (y 2).isLt
  have hy3 : (y 3).val < 704 := (y 3).isLt
  refine hG _ _ ?_ ?_ ?_ ?_
  · show win0_1.index t (0 : Fin 4) * 1 + 1 * (y 0).val = win0_0.index t (0 : Fin 4) * 1 + 1 * 0
    omega
  · show win0_1.index t (1 : Fin 4) * 64 + 1 * (y 1).val = win0_0.index t (3 : Fin 4) * 64 + 1 * (y 1).val
    omega
  · show win0_1.index t (2 : Fin 4) * 40 + 1 * (y 2).val = win0_0.index t (1 : Fin 4) * 40 + 1 * (y 2).val
    omega
  · show win0_1.index t (3 : Fin 4) * 704 + 1 * (y 3).val = win0_0.index t (2 : Fin 4) * 704 + 1 * (y 3).val
    omega

/-- What point `t` writes back, for any such `G` of the region's input array: the point's input block is that
    array's block, by definition. -/
theorem flushed_read (c : Dev nD) (t : Fin cfg0.N) (G : S4x64x200x704.Idx → Elt F .f32)
    (hG : ∀ (j : S4x200x704x64.Idx) (i : S4x64x200x704.Idx), (i 0).val = (j 0).val → (i 1).val = (j 3).val →
      (i 2).val = (j 1).val → (i 3).val = (j 2).val →
      (V m c main_v30 : S4x200x704x64.Idx → Elt F .f32) j = G i) :
    (dats m 0 c).flushed 1 t = ((cfg0.win 1).blk t).view.read (Elt F) G :=
  (Value.flushed1 m c t).trans (block_read t (V m c main_v30) G hG)

/-- The channel-major reading of the scattered canvas is such a function: the region's input at `(b, y, x, c)` is the
    scattered canvas at `(b, 704·y + x, c)`, which is where the channel-major entry `(b, c, y, x)` sits. -/
theorem canvas_read (c : Dev nD) (j : S4x200x704x64.Idx) (i : S4x64x200x704.Idx) (h0 : (i 0).val = (j 0).val)
    (h1 : (i 1).val = (j 3).val) (h2 : (i 2).val = (j 1).val) (h3 : (i 3).val = (j 2).val) :
    (V m c main_v30 : S4x200x704x64.Idx → Elt F .f32) j = channelsFirst (scattered m c) i := by
  rw [channelsFirst_apply]
  exact region_input_apply m c j (cellOf i) ((cellOf_sample i).trans h0)
    ((cellOf_cell i).trans (by rw [h2, h3])) ((cellOf_channel i).trans h1)

/-- What point `t` writes back is its block of the channel-major reading of the scattered canvas. -/
theorem flushed_eq (c : Dev nD) (t : Fin cfg0.N) :
    (dats m 0 c).flushed 1 t
      = ((cfg0.win 1).blk t).view.read (Elt F) (channelsFirst (scattered m c)) :=
  flushed_read m c t (channelsFirst (scattered m c)) (canvas_read m c)

/-- An index of the result is in point `t`'s output block iff each coordinate is in the block's range on its axis. -/
theorem mem_block (t : Fin cfg0.N) (i : S4x64x200x704.Idx) :
    i ∈ ((cfg0.win 1).blk t).view.set ↔ ∀ a : Fin 4, win0_1.index t a * S1x64x40x704.size a ≤ (i a).val
      ∧ (i a).val < win0_1.index t a * S1x64x40x704.size a + S1x64x40x704.size a := by
  show i ∈ ((View.whole main_v31).slice (win0_1.rect t)).set ↔ _
  rw [View.set_slice_whole, Rect.mem_set_unit]
  exact Iff.rfl

/-- The output blocks tile the result: entry `(b, c, y, x)` is in the block of the point `(b, y / 40)`. -/
theorem covered (i : S4x64x200x704.Idx) :
    ∃ t : Fin cfg0.N, (cfg0.win 1).flush t = true ∧ i ∈ ((cfg0.win 1).blk t).view.set := by
  have hi0 : (i 0).val < 4 := (i 0).isLt
  have hi1 : (i 1).val < 64 := (i 1).isLt
  have hi2 : (i 2).val < 200 := (i 2).isLt
  have hi3 : (i 3).val < 704 := (i 3).isLt
  obtain ⟨t, ht⟩ := index_onto ⟨(i 0).val, by omega⟩ ⟨(i 2).val / 40, by omega⟩
  have q0 : win0_1.index t (0 : Fin 4) = (i 0).val := congrFun ht 0
  have q1 : win0_1.index t (1 : Fin 4) = 0 := congrFun ht 1
  have q2 : win0_1.index t (2 : Fin 4) = (i 2).val / 40 := congrFun ht 2
  have q3 : win0_1.index t (3 : Fin 4) = 0 := congrFun ht 3
  refine ⟨t, flush0_1 t, ?_⟩
  rw [mem_block]
  intro a
  match a with
  | ⟨0, _⟩ =>
    show win0_1.index t (0 : Fin 4) * 1 ≤ (i 0).val ∧ (i 0).val < win0_1.index t (0 : Fin 4) * 1 + 1
    omega
  | ⟨1, _⟩ =>
    show win0_1.index t (1 : Fin 4) * 64 ≤ (i 1).val ∧ (i 1).val < win0_1.index t (1 : Fin 4) * 64 + 64
    omega
  | ⟨2, _⟩ =>
    show win0_1.index t (2 : Fin 4) * 40 ≤ (i 2).val ∧ (i 2).val < win0_1.index t (2 : Fin 4) * 40 + 40
    omega
  | ⟨3, _⟩ =>
    show win0_1.index t (3 : Fin 4) * 704 ≤ (i 3).val ∧ (i 3).val < win0_1.index t (3 : Fin 4) * 704 + 704
    omega

/-- The result array after the region: the channel-major reading of the scattered canvas, everywhere. -/
theorem final (c : Dev nD) : (dats m 0 c).arrAt 1 cfg0.N = channelsFirst (scattered m c) :=
  (dats m 0 c).arrAt_eq_of_cover 1 (channelsFirst (scattered m c)) (fun t _ => flushed_eq m c t) covered

/-- The kernel's run with its result named: every weakly fair execution terminates with the result array at the
    channel-major reading of the scattered canvas of the argument arrays, and the arguments unchanged. -/
theorem run : θ_run defs (onTc (τ := τ) (main (F := F))) ⟨m, fun _ => 0, ρ⟩ fun r => ∀ c : Dev nD,
      r.2.mem ((c : Thread nD τ).loc main_v31) = channelsFirst (scattered m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Canvas

end
-- ==== Proof.lean ====
/-
  A pillar scatter onto a bird's-eye canvas, channel-major: the kernel against its plain reference.

  Both programs scatter the pillar feature rows [120000, 64] into a zero cell-major canvas [4, 140800, 64] (sample,
  cell `704·y + x` of the 200 × 704 grid, channel), empty pillars routed out of range and dropped — the same index
  arithmetic, the same constants, the same scatter. They differ only in how the canvas is then turned channel-major,
  [4, 64, 200, 704]:
    * the reference swaps the cell and channel axes and splits the cell axis into rows and columns;
    * the kernel splits the cell axis first, [4, 200, 704, 64], and a 4 × 5 grid of points moves the channel axis of
      each [40, 704, 64] row block to the front.
  Either way entry `(b, c, y, x)` of the result is entry `(b, 704·y + x, c)` of the scattered canvas
  (`Cert.PillarCanvas.channelsFirst`): a re-indexing with no arithmetic on the entries, so the two results agree as
  extended reals whatever the entries are, and the finiteness of the inputs is never used. The scatter is one common
  stage and is not looked into.

  The three frames: the two kernels' are their generated frame runs; the reference's is its generated run with the result
  dropped. The idealization rewrote no operation, so there is nothing to preserve.
-/
import proofs.«154188_j37168646980370_2_alg».proof.Defs
import proofs.«154188_j37168646980370_2_alg».proof.Proof.Gen.Kernel
import proofs.«154188_j37168646980370_2_alg».proof.Proof.Gen.Kernel.Skeleton
import proofs.«154188_j37168646980370_2_alg».proof.Proof.Gen.Kernel.Launch
import proofs.«154188_j37168646980370_2_alg».proof.Proof.Gen.Kernel.Points
import proofs.«154188_j37168646980370_2_alg».proof.Proof.Gen.Kernel.Frame
import proofs.«154188_j37168646980370_2_alg».proof.Proof.Gen.KernelIdeal
import proofs.«154188_j37168646980370_2_alg».proof.Proof.Gen.KernelIdeal.Skeleton
import proofs.«154188_j37168646980370_2_alg».proof.Proof.Gen.KernelIdeal.Launch
import proofs.«154188_j37168646980370_2_alg».proof.Proof.Gen.KernelIdeal.Points
import proofs.«154188_j37168646980370_2_alg».proof.Proof.Gen.KernelIdeal.Frame
import proofs.«154188_j37168646980370_2_alg».proof.Proof.Gen.KernelIdeal.Value
import proofs.«154188_j37168646980370_2_alg».proof.Proof.Gen.ReferenceIdeal
import proofs.«154188_j37168646980370_2_alg».proof.Proof.Gen.ReferenceIdeal.Run
import proofs.«154188_j37168646980370_2_alg».proof.Proof.Gen.ReferenceIdeal.Read
import proofs.«154188_j37168646980370_2_alg».proof.Proof.Gen.Pre_finite_inputs
import proofs.«154188_j37168646980370_2_alg».proof.Proof.CellLayout
import proofs.«154188_j37168646980370_2_alg».proof.Proof.ReferenceCells
import proofs.«154188_j37168646980370_2_alg».proof.Proof.RegionInput
import proofs.«154188_j37168646980370_2_alg».proof.Proof.BlocksToPlanes
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten by the idealization. -/
theorem preserves : Cert.preserves_Kernel_KernelIdeal := trivial

/-- Both results are the channel-major reading of one scattered canvas: the kernel's by its run read block by block,
    the reference's by its run read at an index, of argument arrays that agree. -/
theorem algebraic : Cert.algebraic_KernelIdeal_ReferenceIdeal := by
  intro m ρ m' ρ' _ hagree
  refine ⟨_, Cert.KernelIdeal.Canvas.run (F := Ideal) m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Read.val_main_v31 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) = _
  rw [Cert.ReferenceIdeal.Canvas.result_eq, (hagree c).1, (hagree c).2.1, (hagree c).2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
